-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1024, .f32⟩
  | .local _ .vmem, ⟨3, _⟩ => ⟨S1024x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1x512x1024, .f32⟩
  | .local _ .vmem, ⟨8, _⟩ => ⟨S1x512x1024, .f32⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .f32 = 32 ∨ (Rect.block (s := S4x2048x1024) S1x512x1024.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What one grid point's body leaves behind, as values.

  The body runs in one of two ways. At the first query tile of a sequence it projects the sequence's whole input
  block to keys and values, stores the keys' leading part, the keys' remainder and the values into three scratch
  buffers, and then reads them back; at the other tiles it stores nothing there and reads what the first tile left.
  In both it stores one output block. Each buffer is written by a single store that covers it, so what the buffer
  holds afterwards is that store's payload; and each payload is one of the body's arithmetic terms applied to the
  blocks the point was given — the input block whole, the query tile cut out of it, the three weight matrices, the
  three bias vectors — and, at the later tiles, to the scratch contents carried over. The lemmas below say so for
  any float values.
-/
import proofs.«120993_j61907658605336_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The query tile: the 512 rows of the sequence's input block that the point's second grid coordinate selects. -/
abbrev tile (i : grid0.Coords) (x0 : Vec F S1x2048x1024 .f32) : Vec F S1x512x1024 .f32 :=
  View.ld x0 (Rect.unit (k0_off1 i) S1x512x1024.size (k0_off1_inb i))

/-- The output block as the body's arithmetic over a query tile `v6`, the query weight `x1` and bias `x2`, and the
    three scratch contents `s0`, `s1`, `s2` (the keys' leading part, the keys' remainder, the values): the product
    of the softmax weights with the values, divided by the weights' row sums. -/
abbrev outOf (v6 : Vec F S1x512x1024 .f32) (x1 : Vec F S1024x1024 .bf16) (x2 : Vec F S1024 .f32)
    (s0 s1 s2 : Vec F S2048x1024 .bf16) : Vec F S1x512x1024 .f32 :=
  k0_pay1 (k0_pay8 v6 x1 x2 s0 s1) s2 (k0_pay9 v6 x1 x2 s0 s1) (constant S512x1024 .f32 0x00000000#32)

/-- At a sequence's first tile the first scratch ends holding the keys' leading part of the whole input block. -/
theorem sout_A_0 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = k0_pay4 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x2048x1024) hz3, View.ld_unit_zero (S := S1024x1024) hz2, View.ld_unit_zero (S := S2048x1024) hz2, View.ld_unit_zero (S := S1024) hz1, View.readCov_unit_zero (S := S2048x1024) _ hz2]

/-- At a sequence's first tile the second scratch ends holding the keys' remainder. -/
theorem sout_A_1 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = k0_pay5 x0 x3 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x2048x1024) hz3, View.ld_unit_zero (S := S1024x1024) hz2, View.ld_unit_zero (S := S2048x1024) hz2, View.ld_unit_zero (S := S1024) hz1, View.readCov_unit_zero (S := S2048x1024) _ hz2]

/-- At a sequence's first tile the third scratch ends holding the values. -/
theorem sout_A_2 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 = k0_pay6 x0 x5 x6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x2048x1024) hz3, View.ld_unit_zero (S := S1024x1024) hz2, View.ld_unit_zero (S := S2048x1024) hz2, View.ld_unit_zero (S := S1024) hz1, View.readCov_unit_zero (S := S2048x1024) _ hz2]

/-- At a sequence's first tile the output block is the body's arithmetic over the tile and the scratch contents the
    same point has just stored. -/
theorem out_A_7 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6
      = outOf (tile i x0) x1 x2 (k0_pay4 x0 x3 x4) (k0_pay5 x0 x3 x4) (k0_pay6 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x2048x1024) hz3, View.ld_unit_zero (S := S1024x1024) hz2, View.ld_unit_zero (S := S2048x1024) hz2, View.ld_unit_zero (S := S1024) hz1, View.readCov_unit_zero (S := S2048x1024) _ hz2]
  rfl

/-- At the later tiles the output block is the same arithmetic over the tile and the scratch contents carried over. -/
theorem out_B_7 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole) (hc0 : ¬cond0_0 i) (x0 : Vec F S1x2048x1024 .f32) (x1 : Vec F S1024x1024 .bf16) (x2 : Vec F S1024 .f32) (x3 : Vec F S1024x1024 .bf16) (x4 : Vec F S1024 .f32) (x5 : Vec F S1024x1024 .bf16) (x6 : Vec F S1024 .f32) (xs0 : Vec F S2048x1024 .bf16) (xs1 : Vec F S2048x1024 .bf16) (xs2 : Vec F S2048x1024 .bf16) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = outOf (tile i x0) x1 x2 xs0 xs1 xs2 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x2048x1024) hz3, View.ld_unit_zero (S := S1024x1024) hz2, View.ld_unit_zero (S := S2048x1024) hz2, View.ld_unit_zero (S := S1024) hz1, View.readCov_unit_zero (S := S2048x1024) _ hz2]
  rfl

end Cert.KernelIdeal.Pieces

end
-- ==== Proof.Spec.lean ====
/-
  Unscaled softmax attention over N = 4 sequences of T = 2048 positions and E = 1024 features, as functions of
  the seven argument arrays on the extended reals, entry by entry.

  A projection of the input is `proj X W b (n, t, f) = (∑ e, X (n, t, e) · W (e, f)) + b f`. With Q, K, V the three
  projections, the logit of query position q against key position k is `∑ e, Q (n, q, e) · K (n, k, e)`, each row
  of logits is shifted by its maximum and exponentiated, and the output entry (n, q, f) is the average of
  V (n, k, f) over k with those weights.

  Two arrangements of that average are written down. `refOut` normalises each weight first and then sums
  (`∑ k, (p k / ∑ p) · V k`). `kerOut` sums first and divides once (`(∑ k, p k · V k) / ∑ p`), and forms its
  logits from a split of Q and K into a leading part and a remainder `x - x`, dropping the remainder-by-remainder
  term. The two agree when every entry of every argument is a real number.
-/
import Idealize.ShloMosaic.PureOps.Ideal
import Idealize.ShloMosaic.Lib.ValueIdx

noncomputable section

namespace Cert.Attn

open Idealize.ShloMosaic Idealize.ShloMosaic.ValueIdx

/-- The input's shape, a weight matrix's and a bias vector's. -/
abbrev SX : Shape := ⟨3, ![4, 2048, 1024]⟩
abbrev SW : Shape := ⟨2, ![1024, 1024]⟩
abbrev SB : Shape := ⟨1, ![1024]⟩

/-- A projected array, by coordinates: sequence, position, feature. -/
abbrev Arr3 := Fin 4 → Fin 2048 → Fin 1024 → EReal

/-- One projection of the input: entry (n, t, f) is the sum over e of X (n, t, e) · W (e, f), plus the bias at f. -/
def proj (X : SX.Idx → EReal) (W : SW.Idx → EReal) (b : SB.Idx → EReal) : Arr3 := fun n t f =>
  (∑ e : Fin 1024, X (ix3 n t e) * W (ix2 e f)) + b (ix1 f)

/-- The logit of query position q against key position k in sequence n. -/
def logit (Q K : Arr3) (n : Fin 4) (q k : Fin 2048) : EReal := ∑ e : Fin 1024, Q n q e * K n k e

/-- The logit as formed from split operands: with `x - x` the remainder of each entry, the leading-by-leading,
    leading-by-remainder and remainder-by-leading products, the remainder-by-remainder product left out. -/
def logitSplit (Q K : Arr3) (n : Fin 4) (q k : Fin 2048) : EReal :=
  (∑ e : Fin 1024, Q n q e * K n k e) + (∑ e : Fin 1024, Q n q e * (K n k e - K n k e))
    + ∑ e : Fin 1024, (Q n q e - Q n q e) * K n k e

/-- The maximum of a row of 2048 values, from the bottom element. -/
def rowMax (s : Fin 2048 → EReal) : EReal := (Finset.univ : Finset (Fin 2048)).fold max ⊥ s

/-- The unnormalised weight of key position k in a row of logits: the exponential of the logit less the row's maximum. -/
def weight (s : Fin 2048 → EReal) (k : Fin 2048) : EReal := Ideal.exp (s k - rowMax s)

/-- The attention output, each weight normalised before the sum. -/
def refOut (X : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  ∑ k : Fin 2048,
    Ideal.div (weight (logit (proj X Wq bq) (proj X Wk bk) (i 0) (i 1)) k)
        (∑ k' : Fin 2048, weight (logit (proj X Wq bq) (proj X Wk bk) (i 0) (i 1)) k')
      * proj X Wv bv (i 0) k (i 2)

/-- The attention output, summed first and divided once, over the split logits. -/
def kerOut (X : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  Ideal.div
    (∑ k : Fin 2048, weight (logitSplit (proj X Wq bq) (proj X Wk bk) (i 0) (i 1)) k * proj X Wv bv (i 0) k (i 2))
    (∑ k : Fin 2048, weight (logitSplit (proj X Wq bq) (proj X Wk bk) (i 0) (i 1)) k)

/-- Every entry of an array is a real number. -/
def AllReal {s : Shape} (x : s.Idx → EReal) : Prop := ∀ i, ∃ r : ℝ, x i = (r : EReal)

end Cert.Attn

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibLaneMax.lean ====
/-
  A row maximum read by coordinates.

  A lane maximum of an `[a, b]` array of extended reals, started from the pattern of −∞, is at row `p` the fold of
  `max` from `⊥` over the lane coordinate `k` of the entry `(p, k)`: `max` commutes and associates, so the order the
  reduction visits the lanes in does not matter, and the pattern it starts from denotes the bottom element. Stated for
  any extents; the companion of the lane sum.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The f32 pattern of −∞ denotes the bottom extended real. -/
theorem ofBits_neg_inf : FloatOps.ofBits (F := Ideal) .f32 0xFF800000#32 = (⊥ : EReal) := by
  simp [Ideal.ofBits, Ideal.ieee]

/-- A float lane maximum of an `[a, b]` array from the −∞ pattern, read at row `p`, is the fold of `max` from `⊥`
    over the lane coordinate `k` of the entry `(p, k)`. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg₂ (fun i f => (Finset.univ : Finset (Fin b)).fold max i f) ofBits_neg_inf hf

end Cert.LibLaneMax
-- ==== Proof.Payload.lean ====
/-
  The body's arithmetic, read one entry at a time on the extended reals.

  A projection of a block is, at row r and feature f, the sum over e of the block's entry (r, e) times the weight's
  entry (e, f), plus the bias at f: the matrix product into the zero accumulator is that sum, the changes of float
  format are the identity, the casts that drop or add a leading unit axis keep the entry, and the bias row is repeated
  down the rows. The keys' leading part is that projection, their remainder is the projection less itself, and the
  values are the projection with the value weight and bias.

  A row p of the query tile is projected the same way to q p. Its logit against key row k is the sum of three
  products contracted over the feature axis: q against the keys' leading part, q against the keys' remainder, and
  q's own remainder q - q against the keys' leading part. The row's maximum, taken from minus infinity, is subtracted
  and the difference exponentiated: the weight of k. The output entry (p, f) is the sum over k of the weight of k times
  the values' entry (k, f), divided by the sum over k of the weights.
-/
import proofs.«120993_j61907658605336_2_alg».proof.Proof.Gen.KernelIdeal.Skeleton
import proofs.«120993_j61907658605336_2_alg».proof.Proof.Spec
import proofs.«120993_j61907658605336_2_alg».proof.Proof.LibPlainDot
import proofs.«120993_j61907658605336_2_alg».proof.Proof.LibTransposedRhsDot
import proofs.«120993_j61907658605336_2_alg».proof.Proof.LibKeepdims
import proofs.«120993_j61907658605336_2_alg».proof.Proof.LibLaneMax
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The body's terms, named -/

section Terms

variable {F : FTy → Type} [FloatOps F]

/-- The query tile projected: its product with the query weight into the zero accumulator, plus the bias row. -/
def qTerm (v6 : Vec F S1x512x1024 .f32) (x1 : Vec F S1024x1024 .bf16) (x2 : Vec F S1024 .f32) : FVec F S512x1024 .f32 :=
  addf (matmul dot_S512x1024_S1024x1024_S512x1024_1_0_0_1_n_n none
      (truncf .bf16 (shapeCast S512x1024 v6 shapeCasts_S1x512x1024_S512x1024) bitsLt_bf16_f32)
      (shapeCast S1024x1024 x1 shapeCasts_S1024x1024_S1024x1024) (constant S512x1024 .f32 0x00000000#32))
    (broadcastTo S512x1024 (shapeCast S1x1024 x2 shapeCasts_S1024_S1x1024) broadcasts_S1x1024_S512x1024)

/-- The logits of a projected tile `q` against the keys' leading part `s0` and remainder `s1`: three products
    contracted over the feature axis, the third with the tile's own remainder `q - q`. -/
def sTerm (q : FVec F S512x1024 .f32) (s0 s1 : Vec F S2048x1024 .bf16) : FVec F S512x2048 .f32 :=
  addf (addf
      (matmul dot_S512x1024_S2048x1024_S512x2048_1_1_0_0_n_n none (truncf .bf16 q bitsLt_bf16_f32) s0 (constant S512x2048 .f32 0x00000000#32))
      (matmul dot_S512x1024_S2048x1024_S512x2048_1_1_0_0_n_n none (truncf .bf16 q bitsLt_bf16_f32) s1 (constant S512x2048 .f32 0x00000000#32)))
    (matmul dot_S512x1024_S2048x1024_S512x2048_1_1_0_0_n_n none (truncf .bf16 (subf q q) bitsLt_bf16_f32) s0 (constant S512x2048 .f32 0x00000000#32))

/-- Each row of logits less its maximum, exponentiated. -/
def eTerm (s : FVec F S512x2048 .f32) : FVec F S512x2048 .f32 :=
  exp (subf s (broadcastTo S512x2048
    (shapeCast S512x1 (multiReduction .maximumf [1] S512 s 0xFF800000#32 reduces_S512x2048_S512 (.inl rfl) rfl) shapeCasts_S512_S512x1)
    broadcasts_S512x1_S512x2048))

/-- The body's weights are these three terms composed. -/
theorem pay7_eq (v6 : Vec F S1x512x1024 .f32) (x1 : Vec F S1024x1024 .bf16) (x2 : Vec F S1024 .f32) (s0 s1 : Vec F S2048x1024 .bf16) :
    k0_pay7 v6 x1 x2 s0 s1 = eTerm (sTerm (qTerm v6 x1 x2) s0 s1) := rfl

end Terms

/-! ## The terms at an entry, on the extended reals -/

/-- The projection of a whole input block, at row r and feature f. -/
theorem pay3_apply (x0 : FVec Ideal S1x2048x1024 .f32) (w : FVec Ideal S1024x1024 .bf16) (b : FVec Ideal S1024 .f32)
    (r : Fin 2048) (f : Fin 1024) :
    k0_pay3 x0 w b (ix2 r f) = (∑ e : Fin 1024, x0 (ix3 (0 : Fin 1) r e) * w (ix2 e f)) + b (ix1 f) := by
  unfold k0_pay3 k0_pay2
  refine congrArg₂ (fun a c : EReal => a + c) ?_ ?_
  · refine (Cert.LibPlainDot.matmul_zero_apply 2048 1024 1024 none _ _ (ix2 r f)).trans ?_
    refine Finset.sum_congr rfl fun e _ => congrArg₂ (fun a c : EReal => a * c) ?_ ?_
    · exact shapeCast_1ab_ab_apply x0 _ r e
    · exact congrFun (shapeCast_self w _) _
  · refine (broadcastTo_1b_ab_apply _ _ r f).trans ?_
    exact shapeCast_a_1a_apply b _ 0 f

/-- The keys' leading part is that projection with the key weight and bias. -/
theorem pay4_apply (x0 : FVec Ideal S1x2048x1024 .f32) (w : FVec Ideal S1024x1024 .bf16) (b : FVec Ideal S1024 .f32)
    (r : Fin 2048) (f : Fin 1024) :
    (k0_pay4 (F := Ideal) x0 w b (ix2 r f) : EReal) = (∑ e : Fin 1024, x0 (ix3 (0 : Fin 1) r e) * w (ix2 e f)) + b (ix1 f) := by
  unfold k0_pay4
  refine (congrFun (shapeCast_self _ _) _).trans ?_
  exact pay3_apply x0 w b r f

/-- The keys' remainder is the projection less itself. -/
theorem pay5_apply (x0 : FVec Ideal S1x2048x1024 .f32) (w : FVec Ideal S1024x1024 .bf16) (b : FVec Ideal S1024 .f32)
    (r : Fin 2048) (f : Fin 1024) :
    (k0_pay5 (F := Ideal) x0 w b (ix2 r f) : EReal)
      = ((∑ e : Fin 1024, x0 (ix3 (0 : Fin 1) r e) * w (ix2 e f)) + b (ix1 f))
        - ((∑ e : Fin 1024, x0 (ix3 (0 : Fin 1) r e) * w (ix2 e f)) + b (ix1 f)) := by
  unfold k0_pay5
  refine (congrFun (shapeCast_self _ _) _).trans ?_
  exact congrArg₂ (fun a c : EReal => a - c) (pay3_apply x0 w b r f) (pay3_apply x0 w b r f)

/-- The values are the projection with the value weight and bias. -/
theorem pay6_apply (x0 : FVec Ideal S1x2048x1024 .f32) (w : FVec Ideal S1024x1024 .bf16) (b : FVec Ideal S1024 .f32)
    (r : Fin 2048) (f : Fin 1024) :
    (k0_pay6 (F := Ideal) x0 w b (ix2 r f) : EReal) = (∑ e : Fin 1024, x0 (ix3 (0 : Fin 1) r e) * w (ix2 e f)) + b (ix1 f) := by
  unfold k0_pay6 k0_pay2
  refine (congrFun (shapeCast_self _ _) _).trans ?_
  refine congrArg₂ (fun a c : EReal => a + c) ?_ ?_
  · refine (Cert.LibPlainDot.matmul_zero_apply 2048 1024 1024 none _ _ (ix2 r f)).trans ?_
    refine Finset.sum_congr rfl fun e _ => congrArg₂ (fun a c : EReal => a * c) ?_ ?_
    · exact shapeCast_1ab_ab_apply x0 _ r e
    · exact congrFun (shapeCast_self w _) _
  · refine (broadcastTo_1b_ab_apply _ _ r f).trans ?_
    exact shapeCast_a_1a_apply b _ 0 f

/-- The query tile's projection, at row p of the tile and feature e. -/
theorem qTerm_apply (v6 : FVec Ideal S1x512x1024 .f32) (x1 : FVec Ideal S1024x1024 .bf16) (x2 : FVec Ideal S1024 .f32)
    (p : Fin 512) (e : Fin 1024) :
    qTerm v6 x1 x2 (ix2 p e) = (∑ e' : Fin 1024, v6 (ix3 (0 : Fin 1) p e') * x1 (ix2 e' e)) + x2 (ix1 e) := by
  unfold qTerm
  refine congrArg₂ (fun a c : EReal => a + c) ?_ ?_
  · refine (Cert.LibPlainDot.matmul_zero_apply 512 1024 1024 none _ _ (ix2 p e)).trans ?_
    refine Finset.sum_congr rfl fun e' _ => congrArg₂ (fun a c : EReal => a * c) ?_ ?_
    · exact shapeCast_1ab_ab_apply v6 _ p e'
    · exact congrFun (shapeCast_self x1 _) _
  · refine (broadcastTo_1b_ab_apply _ _ p e).trans ?_
    exact shapeCast_a_1a_apply x2 _ 0 e

/-- The logit of tile row p against key row k: the three products, each a sum over the feature axis. -/
theorem sTerm_apply (q : FVec Ideal S512x1024 .f32) (s0 s1 : FVec Ideal S2048x1024 .bf16) (p : Fin 512) (k : Fin 2048) :
    sTerm q s0 s1 (ix2 p k)
      = (∑ e : Fin 1024, q (ix2 p e) * s0 (ix2 k e)) + (∑ e : Fin 1024, q (ix2 p e) * s1 (ix2 k e))
        + ∑ e : Fin 1024, (q (ix2 p e) - q (ix2 p e)) * s0 (ix2 k e) := by
  unfold sTerm
  refine congrArg₂ (fun a c : EReal => a + c) (congrArg₂ (fun a c : EReal => a + c) ?_ ?_) ?_
  · exact Cert.LibTransposedRhsDot.matmul_zero_apply (M := 512) (K := 1024) (N := 2048) none _ s0 p k
  · exact Cert.LibTransposedRhsDot.matmul_zero_apply (M := 512) (K := 1024) (N := 2048) none _ s1 p k
  · exact Cert.LibTransposedRhsDot.matmul_zero_apply (M := 512) (K := 1024) (N := 2048) none _ s0 p k

/-- The weight of key row k in tile row p: the exponential of the logit less the row's maximum from minus infinity. -/
theorem eTerm_apply (s : FVec Ideal S512x2048 .f32) (p : Fin 512) (k : Fin 2048) :
    eTerm s (ix2 p k)
      = Ideal.exp (s (ix2 p k) - (Finset.univ : Finset (Fin 2048)).fold max ⊥ (fun k' => s (ix2 p k'))) := by
  unfold eTerm
  refine congrArg (fun z : EReal => Ideal.exp (s (ix2 p k) - z)) ?_
  refine (Cert.Keepdims.broadcastTo_a1_ab_apply _ _ p k).trans ?_
  refine (Cert.Keepdims.shapeCast_a_a1_apply _ _ p 0).trans ?_
  exact Cert.LibLaneMax.laneMax_apply s _ _ _ p

/-- The row sum of the weights, kept as a column. -/
theorem pay8_apply (v6 : FVec Ideal S1x512x1024 .f32) (x1 : FVec Ideal S1024x1024 .bf16) (x2 : FVec Ideal S1024 .f32)
    (s0 s1 : FVec Ideal S2048x1024 .bf16) (p : Fin 512) (u : Fin 1) :
    k0_pay8 (F := Ideal) v6 x1 x2 s0 s1 (ix2 p u) = ∑ k : Fin 2048, k0_pay7 (F := Ideal) v6 x1 x2 s0 s1 (ix2 p k) := by
  unfold k0_pay8
  refine (Cert.Keepdims.shapeCast_a_a1_apply _ _ p u).trans ?_
  exact Cert.Keepdims.laneSum_apply _ _ _ _ p

/-- The output entry: the weights' product with the values, divided by the weights' row sum. -/
theorem pay1_apply (v33 : FVec Ideal S512x1 .f32) (v34 : FVec Ideal S2048x1024 .bf16) (v35 : FVec Ideal S512x2048 .bf16)
    (u : Fin 1) (p : Fin 512) (f : Fin 1024) :
    k0_pay1 (F := Ideal) v33 v34 v35 (constant S512x1024 .f32 0x00000000#32) (ix3 u p f)
      = Ideal.div (∑ k : Fin 2048, (v35 (ix2 p k) : EReal) * (v34 (ix2 k f) : EReal)) (v33 (ix2 p (0 : Fin 1))) := by
  unfold k0_pay1
  refine (shapeCast_ab_1ab_apply _ _ u p f).trans ?_
  refine congrArg₂ (fun a c : EReal => Ideal.div a c) ?_ ?_
  · exact Cert.LibPlainDot.matmul_zero_apply 512 2048 1024 none v35 v34 (ix2 p f)
  · exact Cert.Keepdims.broadcastTo_a1_ab_apply v33 _ p f

/-- The weights rounded for the last product are the weights: a change of float format is the identity here. -/
theorem pay9_apply (v6 : FVec Ideal S1x512x1024 .f32) (x1 : FVec Ideal S1024x1024 .bf16) (x2 : FVec Ideal S1024 .f32)
    (s0 s1 : FVec Ideal S2048x1024 .bf16) (i : S512x2048.Idx) :
    (k0_pay9 (F := Ideal) v6 x1 x2 s0 s1 i : EReal) = k0_pay7 (F := Ideal) v6 x1 x2 s0 s1 i := rfl

/-! ## An output block's entry is the attention output -/

open Cert.Attn in
/-- The attention output in its summed-then-divided arrangement, at explicit coordinates. -/
theorem kerOut_at (X : SX.Idx → EReal) (Wq : SW.Idx → EReal) (bq : SB.Idx → EReal) (Wk : SW.Idx → EReal) (bk : SB.Idx → EReal)
    (Wv : SW.Idx → EReal) (bv : SB.Idx → EReal) (n : Fin 4) (t : Fin 2048) (f : Fin 1024) :
    kerOut X Wq bq Wk bk Wv bv (ix3 n t f)
      = Ideal.div (∑ k : Fin 2048, weight (logitSplit (proj X Wq bq) (proj X Wk bk) n t) k * proj X Wv bv n k f)
          (∑ k : Fin 2048, weight (logitSplit (proj X Wq bq) (proj X Wk bk) n t) k) := rfl

open Cert.Attn in
/-- Let the query tile's row p be the input's row (n, t), the query weight and bias be the arguments', and the three
    scratch contents be the key projection of sequence n, that projection less itself, and the value projection of
    sequence n. Then entry (p, f) of the output block is the attention output at (n, t, f): the tile's projection is
    the query projection at (n, t), so each logit is the split logit of (n, t) against key position k, each weight is
    that row's weight, and the quotient is the output's. -/
theorem out_apply (X : SX.Idx → EReal) (Wq : SW.Idx → EReal) (bq : SB.Idx → EReal) (Wk : SW.Idx → EReal) (bk : SB.Idx → EReal)
    (Wv : SW.Idx → EReal) (bv : SB.Idx → EReal) (n : Fin 4) (t : Fin 2048)
    (v6 : FVec Ideal S1x512x1024 .f32) (x1 : FVec Ideal S1024x1024 .bf16) (x2 : FVec Ideal S1024 .f32)
    (s0 s1 s2 : FVec Ideal S2048x1024 .bf16) (u : Fin 1) (p : Fin 512) (f : Fin 1024)
    (hv : ∀ e : Fin 1024, v6 (ix3 (0 : Fin 1) p e) = X (ix3 n t e))
    (h1 : ∀ a b : Fin 1024, (x1 (ix2 a b) : EReal) = Wq (ix2 a b)) (h2 : ∀ e : Fin 1024, x2 (ix1 e) = bq (ix1 e))
    (h0 : ∀ (k : Fin 2048) (e : Fin 1024), (s0 (ix2 k e) : EReal) = proj X Wk bk n k e)
    (hs1 : ∀ (k : Fin 2048) (e : Fin 1024), (s1 (ix2 k e) : EReal) = proj X Wk bk n k e - proj X Wk bk n k e)
    (hs2 : ∀ (k : Fin 2048) (f : Fin 1024), (s2 (ix2 k f) : EReal) = proj X Wv bv n k f) :
    k0_pay1 (F := Ideal) (k0_pay8 v6 x1 x2 s0 s1) s2 (k0_pay9 v6 x1 x2 s0 s1) (constant S512x1024 .f32 0x00000000#32) (ix3 u p f)
      = kerOut X Wq bq Wk bk Wv bv (ix3 n t f) := by
  have hq : ∀ e : Fin 1024, qTerm (F := Ideal) v6 x1 x2 (ix2 p e) = proj X Wq bq n t e := fun e => by
    rw [qTerm_apply]; unfold proj; simp only [hv, h1, h2]
  have hs : ∀ k : Fin 2048, sTerm (F := Ideal) (qTerm v6 x1 x2) s0 s1 (ix2 p k)
      = logitSplit (proj X Wq bq) (proj X Wk bk) n t k := fun k => by
    rw [sTerm_apply]; unfold logitSplit; simp only [hq, h0, hs1]
  have hw : ∀ k : Fin 2048, k0_pay7 (F := Ideal) v6 x1 x2 s0 s1 (ix2 p k)
      = weight (logitSplit (proj X Wq bq) (proj X Wk bk) n t) k := fun k => by
    rw [pay7_eq, eTerm_apply]; unfold weight rowMax; simp only [hs]
  rw [pay1_apply, pay8_apply, kerOut_at]
  simp only [pay9_apply, hw, hs2]

end Cert.KernelIdeal.Payload

end
-- ==== Proof.Blocks.lean ====
/-
  From what each grid point writes to the whole result array.

  The grid has sixteen points, four query tiles for each of four sequences, visited sequence by sequence. Point t
  belongs to sequence t / 4 and to tile t mod 4; it is given the sequence's whole input block, the three weight
  matrices and the three bias vectors whole, and it writes the output block of 512 positions starting at
  512 · (t mod 4) of that sequence.

  The three scratch buffers are filled at a sequence's first tile with the key projection, the key projection less
  itself, and the value projection of that sequence's input block, and are left alone at the other three tiles; so
  after every point they hold those three arrays for the point's own sequence (induction on the point). Hence the
  block that point t writes back is, entry by entry, the attention output at the block's place in the array, the
  sixteen blocks tile the array, and the array ends as the attention output everywhere. The weight matrices reach
  the kernel through a change of float format, which is the identity on the extended reals.
-/
import proofs.«120993_j61907658605336_2_alg».proof.Proof.Gen.KernelIdeal.Value
import proofs.«120993_j61907658605336_2_alg».proof.Proof.Pieces
import proofs.«120993_j61907658605336_2_alg».proof.Proof.Payload
import proofs.«120993_j61907658605336_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The arrays as the region finds them -/

abbrev aX (c : Dev nD) : S4x2048x1024.Idx → EReal := V m c main_arg0
abbrev aWq (c : Dev nD) : S1024x1024.Idx → EReal := V m c main_v0
abbrev abq (c : Dev nD) : S1024.Idx → EReal := V m c main_arg2
abbrev aWk (c : Dev nD) : S1024x1024.Idx → EReal := V m c main_v1
abbrev abk (c : Dev nD) : S1024.Idx → EReal := V m c main_arg4
abbrev aWv (c : Dev nD) : S1024x1024.Idx → EReal := V m c main_v2
abbrev abv (c : Dev nD) : S1024.Idx → EReal := V m c main_arg6

/-- The attention output of the arrays the region finds. -/
abbrev G (c : Dev nD) : S4x2048x1024.Idx → EReal :=
  kerOut (aX m c) (aWq m c) (abq m c) (aWk m c) (abk m c) (aWv m c) (abv m c)

/-! ## Where each point's blocks lie -/

/-- The printed index maps, decided over the sixteen points: the input window and the output window follow the
    sequence t / 4, the output window also the tile t mod 4, the weight and bias windows never move, and the query
    tile starts at row 512 · (t mod 4) of the input block. -/
theorem idx_facts : ∀ t : Fin cfg0.N,
    win0_0.index t (0 : Fin 3) = t.val / 4 ∧ win0_0.index t (1 : Fin 3) = 0 ∧ win0_0.index t (2 : Fin 3) = 0
    ∧ win0_7.index t (0 : Fin 3) = t.val / 4 ∧ win0_7.index t (1 : Fin 3) = t.val % 4 ∧ win0_7.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

theorem hN : cfg0.N = 16 := N_0

/-- The input block of point t, at (u, r, e), is the input at (s, r, e) for s the point's sequence. -/
theorem iblk0_apply (c : Dev nD) (t : Fin cfg0.N) (s : Fin 4) (hs : s.val = t.val / 4) (u : Fin 1) (r : Fin 2048) (e : Fin 1024) :
    (iblk m c 0 t : S1x2048x1024.Idx → EReal) (ix3 u r e) = aX m c (ix3 s r e) := by
  unfold iblk
  rw [View.read_apply]
  show V m c main_arg0 _ = V m c main_arg0 _
  refine congrArg (V m c main_arg0) ?_
  obtain ⟨e0, e1, e2, -⟩ := idx_facts t
  funext a; apply Fin.ext
  match a with
  | ⟨0, _⟩ => show win0_0.index t (0 : Fin 3) * 1 + 1 * u.val = s.val; have := u.isLt; omega
  | ⟨1, _⟩ => show win0_0.index t (1 : Fin 3) * 2048 + 1 * r.val = r.val; omega
  | ⟨2, _⟩ => show win0_0.index t (2 : Fin 3) * 1024 + 1 * e.val = e.val; omega

/-- The query weight's block is the whole matrix at every point. -/
theorem iblk1_eq (c : Dev nD) (t : Fin cfg0.N) : (iblk m c 1 t : S1024x1024.Idx → EReal) = aWq m c := by
  funext j
  unfold iblk
  rw [View.read_apply]
  show V m c main_v0 _ = V m c main_v0 j
  refine congrArg (V m c main_v0) ?_
  have hf := idx_facts t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- The query bias's block is the whole vector at every point. -/
theorem iblk2_eq (c : Dev nD) (t : Fin cfg0.N) : (iblk m c 2 t : S1024.Idx → EReal) = abq m c := by
  funext j
  unfold iblk
  rw [View.read_apply]
  show V m c main_arg2 _ = V m c main_arg2 j
  refine congrArg (V m c main_arg2) ?_
  have hf := idx_facts t
  funext a; apply Fin.ext
  match a with
  | ⟨0, _⟩ => show win0_2.index t (0 : Fin 1) * 1024 + 1 * (j 0).val = (j 0).val; omega

/-- The key weight's block is the whole matrix at every point. -/
theorem iblk3_eq (c : Dev nD) (t : Fin cfg0.N) : (iblk m c 3 t : S1024x1024.Idx → EReal) = aWk m c := by
  funext j
  unfold iblk
  rw [View.read_apply]
  show V m c main_v1 _ = V m c main_v1 j
  refine congrArg (V m c main_v1) ?_
  have hf := idx_facts t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- The key bias's block is the whole vector at every point. -/
theorem iblk4_eq (c : Dev nD) (t : Fin cfg0.N) : (iblk m c 4 t : S1024.Idx → EReal) = abk m c := by
  funext j
  unfold iblk
  rw [View.read_apply]
  show V m c main_arg4 _ = V m c main_arg4 j
  refine congrArg (V m c main_arg4) ?_
  have hf := idx_facts t
  funext a; apply Fin.ext
  match a with
  | ⟨0, _⟩ => show win0_4.index t (0 : Fin 1) * 1024 + 1 * (j 0).val = (j 0).val; omega

/-- The value weight's block is the whole matrix at every point. -/
theorem iblk5_eq (c : Dev nD) (t : Fin cfg0.N) : (iblk m c 5 t : S1024x1024.Idx → EReal) = aWv m c := by
  funext j
  unfold iblk
  rw [View.read_apply]
  show V m c main_v2 _ = V m c main_v2 j
  refine congrArg (V m c main_v2) ?_
  have hf := idx_facts t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

/-- The value bias's block is the whole vector at every point. -/
theorem iblk6_eq (c : Dev nD) (t : Fin cfg0.N) : (iblk m c 6 t : S1024.Idx → EReal) = abv m c := by
  funext j
  unfold iblk
  rw [View.read_apply]
  show V m c main_arg6 _ = V m c main_arg6 j
  refine congrArg (V m c main_arg6) ?_
  have hf := idx_facts t
  funext a; apply Fin.ext
  match a with
  | ⟨0, _⟩ => show win0_6.index t (0 : Fin 1) * 1024 + 1 * (j 0).val = (j 0).val; omega

/-- The query tile of point t, at (u, p, e), is the input block at row 512 · (t mod 4) + p. -/
theorem tile_apply (t : Fin cfg0.N) (x0 : S1x2048x1024.Idx → EReal) (u : Fin 1) (p : Fin 512) (e : Fin 1024)
    (r : Fin 2048) (hr : r.val = 512 * (t.val % 4) + p.val) :
    (Pieces.tile (F := Ideal) (grid0.coords t) x0 : S1x512x1024.Idx → EReal) (ix3 u p e) = x0 (ix3 (0 : Fin 1) r e) := by
  show x0 _ = x0 _
  refine congrArg x0 ?_
  have hf := idx_facts t
  funext a; apply Fin.ext
  match a with
  | ⟨0, _⟩ => show k0_off1 (grid0.coords t) (0 : Fin 3) + 1 * u.val = 0; have := u.isLt; omega
  | ⟨1, _⟩ => show k0_off1 (grid0.coords t) (1 : Fin 3) + 1 * p.val = r.val; omega
  | ⟨2, _⟩ => show k0_off1 (grid0.coords t) (2 : Fin 3) + 1 * e.val = e.val; omega

/-- Entry (u, p, f) of point t's output block sits in the array at sequence t / 4, position 512 · (t mod 4) + p,
    feature f. -/
theorem emb7_apply (t : Fin cfg0.N) (s : Fin 4) (hs : s.val = t.val / 4) (u : Fin 1) (p : Fin 512) (f : Fin 1024)
    (r : Fin 2048) (hr : r.val = 512 * (t.val % 4) + p.val) :
    ((cfg0.win 7).blk t).view.emb (ix3 u p f : S1x512x1024.Idx) = (ix3 s r f : S4x2048x1024.Idx) := by
  have hf := idx_facts t
  funext a; apply Fin.ext
  match a with
  | ⟨0, _⟩ => show win0_7.index t (0 : Fin 3) * 1 + 1 * u.val = s.val; have := u.isLt; omega
  | ⟨1, _⟩ => show win0_7.index t (1 : Fin 3) * 512 + 1 * p.val = r.val; omega
  | ⟨2, _⟩ => show win0_7.index t (2 : Fin 3) * 1024 + 1 * f.val = f.val; omega

/-! ## The scratch contents -/

/-- What a sequence's first tile computes from the point's blocks: the key projection, that projection less itself,
    and the value projection, of the point's sequence. -/
theorem kv_of_block (c : Dev nD) (t : Fin cfg0.N) (s : Fin 4) (hs : s.val = t.val / 4) :
    (∀ (k : Fin 2048) (e : Fin 1024), (k0_pay4 (F := Ideal) (iblk m c 0 t) (iblk m c 3 t) (iblk m c 4 t) (ix2 k e) : EReal)
        = proj (aX m c) (aWk m c) (abk m c) s k e)
    ∧ (∀ (k : Fin 2048) (e : Fin 1024), (k0_pay5 (F := Ideal) (iblk m c 0 t) (iblk m c 3 t) (iblk m c 4 t) (ix2 k e) : EReal)
        = proj (aX m c) (aWk m c) (abk m c) s k e - proj (aX m c) (aWk m c) (abk m c) s k e)
    ∧ (∀ (k : Fin 2048) (f : Fin 1024), (k0_pay6 (F := Ideal) (iblk m c 0 t) (iblk m c 5 t) (iblk m c 6 t) (ix2 k f) : EReal)
        = proj (aX m c) (aWv m c) (abv m c) s k f) := by
  refine ⟨fun k e => ?_, fun k e => ?_, fun k f => ?_⟩
  · refine (Payload.pay4_apply (iblk m c 0 t) (iblk m c 3 t) (iblk m c 4 t) k e).trans ?_
    exact congrArg₂ (fun a b : EReal => a + b)
      (Finset.sum_congr rfl fun e' _ => congrArg₂ (fun a b : EReal => a * b) (iblk0_apply m c t s hs 0 k e')
        (congrFun (iblk3_eq m c t) _)) (congrFun (iblk4_eq m c t) _)
  · refine (Payload.pay5_apply (iblk m c 0 t) (iblk m c 3 t) (iblk m c 4 t) k e).trans ?_
    refine congrArg₂ (fun a b : EReal => a - b) ?_ ?_ <;>
      exact congrArg₂ (fun a b : EReal => a + b)
        (Finset.sum_congr rfl fun e' _ => congrArg₂ (fun a b : EReal => a * b) (iblk0_apply m c t s hs 0 k e')
          (congrFun (iblk3_eq m c t) _)) (congrFun (iblk4_eq m c t) _)
  · refine (Payload.pay6_apply (iblk m c 0 t) (iblk m c 5 t) (iblk m c 6 t) k f).trans ?_
    exact congrArg₂ (fun a b : EReal => a + b)
      (Finset.sum_congr rfl fun e' _ => congrArg₂ (fun a b : EReal => a * b) (iblk0_apply m c t s hs 0 k e')
        (congrFun (iblk5_eq m c t) _)) (congrFun (iblk6_eq m c t) _)

/-- After point n the three scratch buffers hold the key projection, that projection less itself, and the value
    projection of the point's sequence n / 4. -/
def ScrInv (c : Dev nD) (n : ℕ) (h : n < cfg0.N) : Prop :=
  ∀ s : Fin 4, s.val = n / 4 →
    (∀ (k : Fin 2048) (e : Fin 1024), (((outsAt0 m c n h).2.1 : S2048x1024.Idx → EReal) (ix2 k e))
        = proj (aX m c) (aWk m c) (abk m c) s k e)
    ∧ (∀ (k : Fin 2048) (e : Fin 1024), (((outsAt0 m c n h).2.2.1 : S2048x1024.Idx → EReal) (ix2 k e))
        = proj (aX m c) (aWk m c) (abk m c) s k e - proj (aX m c) (aWk m c) (abk m c) s k e)
    ∧ (∀ (k : Fin 2048) (f : Fin 1024), (((outsAt0 m c n h).2.2.2 : S2048x1024.Idx → EReal) (ix2 k f))
        = proj (aX m c) (aWv m c) (abv m c) s k f)

/-- At a sequence's first tile the point itself stores them. -/
theorem scr_first (c : Dev nD) (t : Fin cfg0.N) (h0 : t.val % 4 = 0) : ScrInv m c t.val t.isLt := by
  intro s hs
  rw [outsAt0_A m c t h0]
  dsimp only
  rw [Pieces.sout_A_0, Pieces.sout_A_1, Pieces.sout_A_2]
  exact kv_of_block m c t s hs

/-- By induction on the point: a first tile stores them, and a later tile of the same sequence leaves what the
    point before it left. -/
theorem scr_inv (c : Dev nD) : ∀ (n : ℕ) (h : n < cfg0.N), ScrInv m c n h
  | 0, h => scr_first m c ⟨0, h⟩ rfl
  | n + 1, h => by
    by_cases h0 : (n + 1) % 4 = 0
    · exact scr_first m c ⟨n + 1, h⟩ h0
    · intro s hs
      have ih := scr_inv c n (Nat.lt_of_succ_lt h) s (by omega)
      have hB : ¬(⟨n + 1, h⟩ : Fin cfg0.N).val % 4 = 0 := h0
      rw [outsAt0_B m c ⟨n + 1, h⟩ hB]
      dsimp only
      unfold sout0_B_0 sout0_B_1 sout0_B_2
      exact ih

/-! ## What each point writes back -/

/-- An output block's entry, over any scratch contents that are the point's sequence's key projection, that
    projection less itself, and value projection, is the attention output at the entry's place in the array. -/
theorem block_entry (c : Dev nD) (t : Fin cfg0.N) (s0 s1 s2 : FVec Ideal S2048x1024 .bf16)
    (hsc : ∀ s : Fin 4, s.val = t.val / 4 →
      (∀ (k : Fin 2048) (e : Fin 1024), (s0 (ix2 k e) : EReal) = proj (aX m c) (aWk m c) (abk m c) s k e)
      ∧ (∀ (k : Fin 2048) (e : Fin 1024), (s1 (ix2 k e) : EReal)
          = proj (aX m c) (aWk m c) (abk m c) s k e - proj (aX m c) (aWk m c) (abk m c) s k e)
      ∧ (∀ (k : Fin 2048) (f : Fin 1024), (s2 (ix2 k f) : EReal) = proj (aX m c) (aWv m c) (abv m c) s k f))
    (y : S1x512x1024.Idx) :
    (Pieces.outOf (F := Ideal) (Pieces.tile (grid0.coords t) (iblk m c 0 t)) (iblk m c 1 t) (iblk m c 2 t) s0 s1 s2
        : S1x512x1024.Idx → EReal) y
      = G m c (((cfg0.win 7).blk t).view.emb y) := by
  obtain ⟨u, p, f, rfl⟩ : ∃ (u : Fin 1) (p : Fin 512) (f : Fin 1024), y = ix3 u p f := ⟨y 0, y 1, y 2, eq_ix3 y⟩
  have hlt : t.val < 16 := lt_of_lt_of_eq t.isLt hN
  obtain ⟨s, hs⟩ : ∃ s : Fin 4, s.val = t.val / 4 := ⟨⟨t.val / 4, by omega⟩, rfl⟩
  obtain ⟨r, hr⟩ : ∃ r : Fin 2048, r.val = 512 * (t.val % 4) + p.val :=
    ⟨⟨512 * (t.val % 4) + p.val, by have := p.isLt; omega⟩, rfl⟩
  obtain ⟨hk, hkl, hv⟩ := hsc s hs
  rw [emb7_apply t s hs u p f r hr]
  exact Payload.out_apply (aX m c) (aWq m c) (abq m c) (aWk m c) (abk m c) (aWv m c) (abv m c) s r
    (Pieces.tile (grid0.coords t) (iblk m c 0 t)) (iblk m c 1 t) (iblk m c 2 t) s0 s1 s2 u p f
    (fun e => (tile_apply t (iblk m c 0 t) 0 p e r hr).trans (iblk0_apply m c t s hs 0 r e))
    (fun a b => congrFun (iblk1_eq m c t) _) (fun e => congrFun (iblk2_eq m c t) _) hk hkl hv

/-- What point t writes back is block t of the attention output of the arrays the region finds. -/
theorem flushed_eq (c : Dev nD) (t : Fin cfg0.N) :
    (dats m 0 c).flushed 7 t = ((cfg0.win 7).blk t).view.read (Elt Ideal) (G m c) := by
  by_cases h0 : t.val % 4 = 0
  · rw [Value.flushed7_A m c t h0, Pieces.out_A_7]
    funext y
    exact block_entry m c t _ _ _ (fun s hs => kv_of_block m c t s hs) y
  · rw [Value.flushed7_B m c t h0, Pieces.out_B_7]
    funext y
    have hlt : t.val < 16 := lt_of_lt_of_eq t.isLt hN
    exact block_entry m c t _ _ _ (fun s hs => scr_inv m c (t.val - 1) _ s (by omega)) y

/-! ## The sixteen blocks tile the array -/

/-- An index of the array is in point t's block iff each coordinate is in the block's range on its axis. -/
theorem mem_blk7 (t : Fin cfg0.N) (i : S4x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v3).slice (win0_7.rect t)).set ↔ _
  rw [View.set_slice_whole, Rect.mem_set_unit]
  exact Iff.rfl

/-- The array after the run is the attention output of the arrays the region finds: position r of sequence s lies
    in the block of point 4 · s + r / 512. -/
theorem final (c : Dev nD) : (dats m 0 c).arrAt 7 cfg0.N = G m c :=
  (dats m 0 c).arrAt_eq_of_cover 7 (G m c) (fun t _ => flushed_eq m c t) fun i => by
    have hi0 : (i 0).val < 4 := (i 0).isLt
    have hi1 : (i 1).val < 2048 := (i 1).isLt
    have hi2 : (i 2).val < 1024 := (i 2).isLt
    have ht : 4 * (i 0).val + (i 1).val / 512 < cfg0.N := by rw [hN]; omega
    obtain ⟨-, -, -, e3, e4, e5, -⟩ := idx_facts ⟨_, ht⟩
    have e3' : win0_7.index ⟨_, ht⟩ (0 : Fin 3) = (4 * (i 0).val + (i 1).val / 512) / 4 := e3
    have e4' : win0_7.index ⟨_, ht⟩ (1 : Fin 3) = (4 * (i 0).val + (i 1).val / 512) % 4 := e4
    refine ⟨⟨_, ht⟩, flush0_7 _, (mem_blk7 _ i).mpr fun a => ?_⟩
    match a with
    | ⟨0, _⟩ =>
      show win0_7.index ⟨_, ht⟩ (0 : Fin 3) * 1 ≤ (i 0).val ∧ (i 0).val < win0_7.index ⟨_, ht⟩ (0 : Fin 3) * 1 + 1
      omega
    | ⟨1, _⟩ =>
      show win0_7.index ⟨_, ht⟩ (1 : Fin 3) * 512 ≤ (i 1).val ∧ (i 1).val < win0_7.index ⟨_, ht⟩ (1 : Fin 3) * 512 + 512
      omega
    | ⟨2, _⟩ =>
      show win0_7.index ⟨_, ht⟩ (2 : Fin 3) * 1024 ≤ (i 2).val ∧ (i 2).val < win0_7.index ⟨_, ht⟩ (2 : Fin 3) * 1024 + 1024
      omega

/-! ## The arrays the region finds are the arguments -/

/-- The query weight reaches the region through a change of float format: on the extended reals, unchanged. -/
theorem aWq_eq (c : Dev nD) : aWq m c = m ((c : Thread nD τ).loc main_arg1) := by
  show (V m c main_v0 : S1024x1024.Idx → EReal) = _
  dsimp only [Gen.V, Gen.hostOps0]; after_results; rfl

/-- The key weight likewise. -/
theorem aWk_eq (c : Dev nD) : aWk m c = m ((c : Thread nD τ).loc main_arg3) := by
  show (V m c main_v1 : S1024x1024.Idx → EReal) = _
  dsimp only [Gen.V, Gen.hostOps0]; after_results; rfl

/-- The value weight likewise. -/
theorem aWv_eq (c : Dev nD) : aWv m c = m ((c : Thread nD τ).loc main_arg5) := by
  show (V m c main_v2 : S1024x1024.Idx → EReal) = _
  dsimp only [Gen.V, Gen.hostOps0]; after_results; rfl

/-- So the attention output of the arrays the region finds is that of the seven arguments. -/
theorem G_eq (c : Dev nD) :
    G m c = kerOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  show kerOut (aX m c) (aWq m c) (abq m c) (aWk m c) (abk m c) (aWv m c) (abv m c) = _
  rw [aWq_eq, aWk_eq, aWv_eq]
  show kerOut (V m c main_arg0) _ (V m c main_arg2) _ (V m c main_arg4) _ (V m c main_arg6) = _
  rw [V_main_arg0, V_main_arg2, V_main_arg4, V_main_arg6]

/-! ## The run, read -/

/-- Every execution of the idealized kernel ends with the result array at the attention output of the seven
    arguments, in its summed-then-divided arrangement over the split logits, and the arguments unchanged. -/
theorem run : θ_run defs (onTc (τ := τ) (main (F := Ideal))) ⟨m, fun _ => 0, ρ⟩ fun r => ∀ c : Dev nD,
      r.2.mem ((c : Thread nD τ).loc main_v3)
        = kerOut (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1.trans (final m c)).trans (G_eq m c), (h c).2⟩) (Value.run_blocks m ρ)

end Cert.KernelIdeal.Blocks

end
-- ==== Proof.RefSide.lean ====
/-
  The reference program computes the attention output with each weight normalised before the sum.

  The reference is a straight line of array operations: three projections of the input (a contraction over the feature
  axis plus a bias spread over sequences and positions), the batched contraction of the query and key projections into
  logits, the maximum of each row of logits taken from minus infinity and joined once more with minus infinity, the
  exponential of each logit less its row's maximum, the sum of each row of exponentials taken from zero, the quotient
  of each exponential by its row's sum, and the batched contraction of those quotients with the value projection.

  Each operation's result at an index is a function of its operands at indices. Reading the operations in program order
  at explicit coordinates (n, t, f) or (n, q, k) identifies the stages with the named functions of the specification:
  a projection stage is proj, the logits are logit, the row maximum is rowMax (minus infinity is the bottom element, so
  it is neutral for the maximum), the exponentials are weight, the row sum is the sum of the weights (zero is neutral
  for the sum), and the last contraction is the sum over key positions that defines refOut.
-/
import proofs.«120993_j61907658605336_2_alg».proof.Proof.Spec
import proofs.«120993_j61907658605336_2_alg».proof.Proof.Gen.ReferenceIdeal.Read
import Idealize.ShloMosaic.Lib.ValueIdx
import Idealize.ShloMosaic.PureOps.Reduce
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read

/-! ## Indices -/

/-- The left operand of a projection's contraction is read at (n, t, e). -/
theorem lidx_v0 (n : Fin 4) (t : Fin 2048) (f e : Fin 1024) : lidx_main_v0 (ix3 n t f) e = ix3 n t e :=
  funext fun a => Fin.ext (by match a with | ⟨0, _⟩ => rfl | ⟨1, _⟩ => rfl | ⟨2, _⟩ => rfl)

/-- The right operand of a projection's contraction is read at (e, f). -/
theorem ridx_v0 (n : Fin 4) (t : Fin 2048) (f e : Fin 1024) : ridx_main_v0 (ix3 n t f) e = ix2 e f :=
  funext fun a => Fin.ext (by match a with | ⟨0, _⟩ => rfl | ⟨1, _⟩ => rfl)

/-- The bias, spread over sequences and positions, is read at f. -/
theorem idx_v1_v2 (n : Fin 4) (t : Fin 2048) (f : Fin 1024) : idx_main_v1 (idx_main_v2 (ix3 n t f)) = ix1 f :=
  funext fun a => Fin.ext (by match a with | ⟨0, _⟩ => rfl)

/-! ## The projections -/

/-- The first projection stage at (n, t, f) is the sum over e of X (n, t, e) · W (e, f), plus the bias at f. -/
theorem v3_apply (X : S4x2048x1024.Idx → EReal) (W : S1024x1024.Idx → EReal) (b : S1024.Idx → EReal)
    (n : Fin 4) (t : Fin 2048) (f : Fin 1024) :
    val_main_v3 (F := Ideal) X W b (ix3 n t f) = proj X W b n t f := by
  rw [val_main_v3_apply, val_main_v0_apply, val_main_v2_apply, val_main_v1_apply, idx_v1_v2, Ideal.addf_def]
  unfold proj
  simp only [lidx_v0, ridx_v0]

/-- The second projection stage is the first one's function at the key's weight and bias. -/
theorem v7_eq (X : S4x2048x1024.Idx → EReal) (W : S1024x1024.Idx → EReal) (b : S1024.Idx → EReal) :
    val_main_v7 (F := Ideal) X W b = val_main_v3 (F := Ideal) X W b := rfl

/-- The third projection stage is the first one's function at the value's weight and bias. -/
theorem v11_eq (X : S4x2048x1024.Idx → EReal) (W : S1024x1024.Idx → EReal) (b : S1024.Idx → EReal) :
    val_main_v11 (F := Ideal) X W b = val_main_v3 (F := Ideal) X W b := rfl

/-! ## The logits -/

/-- The query operand of the logits' contraction is read at (n, q, e). -/
theorem lidx_v12 (n : Fin 4) (q k : Fin 2048) (e : Fin 1024) : lidx_main_v12 (ix3 n q k) e = ix3 n q e :=
  funext fun a => Fin.ext (by match a with | ⟨0, _⟩ => rfl | ⟨1, _⟩ => rfl | ⟨2, _⟩ => rfl)

/-- The key operand of the logits' contraction is read at (n, k, e). -/
theorem ridx_v12 (n : Fin 4) (q k : Fin 2048) (e : Fin 1024) : ridx_main_v12 (ix3 n q k) e = ix3 n k e :=
  funext fun a => Fin.ext (by match a with | ⟨0, _⟩ => rfl | ⟨1, _⟩ => rfl | ⟨2, _⟩ => rfl)

/-- The logits stage at (n, q, k) is the sum over e of Q (n, q, e) · K (n, k, e), with Q and K the query and key
    projections. -/
theorem v12_apply (x0 : S4x2048x1024.Idx → EReal) (x1 : S1024x1024.Idx → EReal) (x2 : S1024.Idx → EReal)
    (x3 : S1024x1024.Idx → EReal) (x4 : S1024.Idx → EReal) (n : Fin 4) (q k : Fin 2048) :
    val_main_v12 (F := Ideal) x0 x1 x2 x3 x4 (ix3 n q k) = logit (proj x0 x1 x2) (proj x0 x3 x4) n q k := by
  rw [val_main_v12_apply, v7_eq]
  unfold logit
  refine Finset.sum_congr rfl fun e _ => ?_
  rw [lidx_v12, ridx_v12, v3_apply, v3_apply]

/-! ## The row maximum -/

/-- Minus infinity is the bottom element of the extended reals. -/
theorem negInf_eq_bot : Ideal.ofBits .f32 0xFF800000#32 = (⊥ : EReal) := by simp [Ideal.ofBits, Ideal.ieee]

/-- The index (n, q) with k put back on the reduced axis is (n, q, k). -/
theorem lift_ix2 (h : S4x2048x2048.Reduces [2] S4x2048) (n : Fin 4) (q k : Fin 2048) :
    h.lift (ix2 n q) k = ix3 n q k := by
  funext c; apply Fin.ext
  fin_cases c <;> rfl

/-- The maximum-reduce stage at (n, q) is the maximum, from the bottom element, of the row of logits at (n, q). -/
theorem v13_apply (x0 : S4x2048x1024.Idx → EReal) (x1 : S1024x1024.Idx → EReal) (x2 : S1024.Idx → EReal)
    (x3 : S1024x1024.Idx → EReal) (x4 : S1024.Idx → EReal) (n : Fin 4) (q : Fin 2048) :
    val_main_v13 (F := Ideal) x0 x1 x2 x3 x4 (ix2 n q) = rowMax (logit (proj x0 x1 x2) (proj x0 x3 x4) n q) := by
  have h : S4x2048x2048.Reduces [2] S4x2048 := by decide
  unfold val_main_v13
  rw [Host.reduce_eq_fold_single FloatOps.maximumf _ _ reducesTo_S4x2048x2048_S4x2048_d2 h h_S_]
  have hf : (val_main_v12 (F := Ideal) x0 x1 x2 x3 x4 ∘ h.lift (ix2 n q))
      = logit (proj x0 x1 x2) (proj x0 x3 x4) n q :=
    funext fun k => (congrArg (val_main_v12 (F := Ideal) x0 x1 x2 x3 x4) (lift_ix2 h n q k)).trans
      (v12_apply x0 x1 x2 x3 x4 n q k)
  unfold rowMax
  show Finset.fold max (Ideal.ofBits .f32 0xFF800000#32) (val_main_v12 (F := Ideal) x0 x1 x2 x3 x4 ∘ h.lift (ix2 n q))
      (Finset.univ : Finset (Fin 2048)) = _
  rw [hf, negInf_eq_bot]
  rfl

/-- Joined once more with minus infinity, the row maximum is unchanged. -/
theorem v15_apply (x0 : S4x2048x1024.Idx → EReal) (x1 : S1024x1024.Idx → EReal) (x2 : S1024.Idx → EReal)
    (x3 : S1024x1024.Idx → EReal) (x4 : S1024.Idx → EReal) (n : Fin 4) (q : Fin 2048) :
    val_main_v15 (F := Ideal) x0 x1 x2 x3 x4 (ix2 n q) = rowMax (logit (proj x0 x1 x2) (proj x0 x3 x4) n q) := by
  rw [val_main_v15_apply, val_main_v14_apply, val_main_cst_0_apply, v13_apply, Ideal.ofBits_def, negInf_eq_bot,
    Ideal.maximumf_def]
  exact max_bot_left _

/-- The row maximum, spread over key positions, is read at (n, q). -/
theorem idx_v16_v17 (n : Fin 4) (q k : Fin 2048) : idx_main_v16 (idx_main_v17 (ix3 n q k)) = ix2 n q :=
  funext fun a => Fin.ext (by match a with | ⟨0, _⟩ => rfl | ⟨1, _⟩ => rfl)

/-- The row maximum, spread over key positions, at (n, q, k) is the maximum of the row of logits at (n, q). -/
theorem v17_apply (x0 : S4x2048x1024.Idx → EReal) (x1 : S1024x1024.Idx → EReal) (x2 : S1024.Idx → EReal)
    (x3 : S1024x1024.Idx → EReal) (x4 : S1024.Idx → EReal) (n : Fin 4) (q k : Fin 2048) :
    val_main_v17 (F := Ideal) x0 x1 x2 x3 x4 (ix3 n q k) = rowMax (logit (proj x0 x1 x2) (proj x0 x3 x4) n q) := by
  rw [val_main_v17_apply, val_main_v16_apply, idx_v16_v17, v15_apply]

/-! ## The weights and their sum -/

/-- The exponential stage at (n, q, k) is the weight of key position k in the row of logits at (n, q). -/
theorem v19_apply (x0 : S4x2048x1024.Idx → EReal) (x1 : S1024x1024.Idx → EReal) (x2 : S1024.Idx → EReal)
    (x3 : S1024x1024.Idx → EReal) (x4 : S1024.Idx → EReal) (n : Fin 4) (q k : Fin 2048) :
    val_main_v19 (F := Ideal) x0 x1 x2 x3 x4 (ix3 n q k) = weight (logit (proj x0 x1 x2) (proj x0 x3 x4) n q) k := by
  rw [val_main_v19_apply, val_main_v18_apply, v12_apply, v17_apply, Ideal.subf_def, Ideal.hostUnary_exp_def]
  rfl

/-- The sum-reduce stage reads the exponentials of row (n, q) at (n, q, k). -/
theorem idx_v20 (n : Fin 4) (q k : Fin 2048) : idx_main_v20 (ix2 n q) k = ix3 n q k :=
  funext fun a => Fin.ext (by match a with | ⟨0, _⟩ => rfl | ⟨1, _⟩ => rfl | ⟨2, _⟩ => rfl)

/-- The sum-reduce stage at (n, q) is the sum of the weights of the row of logits at (n, q). -/
theorem v20_apply (x0 : S4x2048x1024.Idx → EReal) (x1 : S1024x1024.Idx → EReal) (x2 : S1024.Idx → EReal)
    (x3 : S1024x1024.Idx → EReal) (x4 : S1024.Idx → EReal) (n : Fin 4) (q : Fin 2048) :
    val_main_v20 (F := Ideal) x0 x1 x2 x3 x4 (ix2 n q)
      = ∑ k : Fin 2048, weight (logit (proj x0 x1 x2) (proj x0 x3 x4) n q) k := by
  rw [val_main_v20_apply, val_main_cst_1_apply, Ideal.ofBits_def, Ideal.ofBits_zero_f32, zero_add]
  refine Finset.sum_congr rfl fun k _ => ?_
  rw [idx_v20, v19_apply]

/-- The row sum, spread over key positions, is read at (n, q). -/
theorem idx_v21_v22 (n : Fin 4) (q k : Fin 2048) : idx_main_v21 (idx_main_v22 (ix3 n q k)) = ix2 n q :=
  funext fun a => Fin.ext (by match a with | ⟨0, _⟩ => rfl | ⟨1, _⟩ => rfl)

/-- The row sum, spread over key positions, at (n, q, k) is the sum of the weights of the row of logits at (n, q). -/
theorem v22_apply (x0 : S4x2048x1024.Idx → EReal) (x1 : S1024x1024.Idx → EReal) (x2 : S1024.Idx → EReal)
    (x3 : S1024x1024.Idx → EReal) (x4 : S1024.Idx → EReal) (n : Fin 4) (q k : Fin 2048) :
    val_main_v22 (F := Ideal) x0 x1 x2 x3 x4 (ix3 n q k)
      = ∑ k' : Fin 2048, weight (logit (proj x0 x1 x2) (proj x0 x3 x4) n q) k' := by
  rw [val_main_v22_apply, val_main_v21_apply, idx_v21_v22, v20_apply]

/-- The quotient stage at (n, q, k) is the weight of key position k divided by the sum of the row's weights. -/
theorem v23_apply (x0 : S4x2048x1024.Idx → EReal) (x1 : S1024x1024.Idx → EReal) (x2 : S1024.Idx → EReal)
    (x3 : S1024x1024.Idx → EReal) (x4 : S1024.Idx → EReal) (n : Fin 4) (q k : Fin 2048) :
    val_main_v23 (F := Ideal) x0 x1 x2 x3 x4 (ix3 n q k)
      = Ideal.div (weight (logit (proj x0 x1 x2) (proj x0 x3 x4) n q) k)
          (∑ k' : Fin 2048, weight (logit (proj x0 x1 x2) (proj x0 x3 x4) n q) k') := by
  rw [val_main_v23_apply, v19_apply, v22_apply, Ideal.hostDivf_def]

/-! ## The output -/

/-- The normalised weights of the last contraction are read at (n, q, k). -/
theorem lidx_v24 (n : Fin 4) (q k : Fin 2048) (f : Fin 1024) : lidx_main_v24 (ix3 n q f) k = ix3 n q k :=
  funext fun a => Fin.ext (by match a with | ⟨0, _⟩ => rfl | ⟨1, _⟩ => rfl | ⟨2, _⟩ => rfl)

/-- The value projection of the last contraction is read at (n, k, f). -/
theorem ridx_v24 (n : Fin 4) (q k : Fin 2048) (f : Fin 1024) : ridx_main_v24 (ix3 n q f) k = ix3 n k f :=
  funext fun a => Fin.ext (by match a with | ⟨0, _⟩ => rfl | ⟨1, _⟩ => rfl | ⟨2, _⟩ => rfl)

/-- The reference's result is refOut: at (n, q, f), the sum over key positions k of the normalised weight of k in the
    row of logits at (n, q) times the value projection at (n, k, f). -/
theorem val_eq (x0 : S4x2048x1024.Idx → EReal) (x1 : S1024x1024.Idx → EReal) (x2 : S1024.Idx → EReal)
    (x3 : S1024x1024.Idx → EReal) (x4 : S1024.Idx → EReal) (x5 : S1024x1024.Idx → EReal) (x6 : S1024.Idx → EReal) :
    val_main_v24 (F := Ideal) x0 x1 x2 x3 x4 x5 x6 = refOut x0 x1 x2 x3 x4 x5 x6 := by
  funext i
  obtain ⟨n, q, f, rfl⟩ : ∃ (n : Fin 4) (q : Fin 2048) (f : Fin 1024), i = ix3 n q f := ⟨i 0, i 1, i 2, eq_ix3 i⟩
  rw [val_main_v24_apply, v11_eq]
  unfold refOut
  refine Finset.sum_congr rfl fun k _ => ?_
  rw [lidx_v24, ridx_v24, v23_apply, v3_apply]

end Cert.Attn.Ref

end
-- ==== Proof.Algebra.lean ====
/-
  The two arrangements of the attention output agree when every argument entry is a real number.

  On the extended reals `x - x` is not `0` at the infinities and multiplication does not distribute over
  addition there, so the argument first shows that every intermediate value is (the image of) a real number and then
  does the algebra in ℝ.

  * A projection of real arrays is a real array: a finite sum of products of reals, plus a real.
  * For real Q and K the split logit is the plain logit: each remainder `x - x` is `0`, so the two extra sums are
    sums of zeros; and the plain logit is a real.
  * The maximum of a row of reals over the nonempty index set, folded from `⊥`, is a real: `max x ⊥ = x` at the
    first element and the maximum of two reals is a real afterwards.
  * So every weight `exp (s k - M)` is a positive real, and the sum L of a row's weights is a positive real, in
    particular nonzero; division by L is then multiplication by the real `1 / L`.
  * With every term a real, `(∑ k, p k · v k) · (1 / L) = ∑ k, (p k · (1 / L)) · v k` is distributivity and
    commutativity in ℝ.
-/
import proofs.«120993_j61907658605336_2_alg».proof.Proof.Spec
import Mathlib.Data.EReal.Operations
import Mathlib.Data.EReal.Inv
import Mathlib.Analysis.SpecialFunctions.Exp

noncomputable section

namespace Cert.Attn

open Idealize.ShloMosaic Idealize.ShloMosaic.ValueIdx

/-- A projected array all of whose entries are the given reals. -/
abbrev coeArr (r : Fin 4 → Fin 2048 → Fin 1024 → ℝ) : Arr3 := fun n t f => (r n t f : EReal)

/-- A finite sum of (images of) reals is the (image of the) real sum. -/
theorem coe_finset_sum {ι : Type} (s : Finset ι) (f : ι → ℝ) :
    (∑ i ∈ s, (f i : EReal)) = ((∑ i ∈ s, f i : ℝ) : EReal) := by
  classical
  induction s using Finset.induction_on with
  | empty => simp only [Finset.sum_empty, EReal.coe_zero]
  | insert a s ha ih => rw [Finset.sum_insert ha, Finset.sum_insert ha, ih, EReal.coe_add]

/-- A projection of real arrays is a real array: each entry is a finite sum of products of reals plus a real. -/
theorem proj_real (X : SX.Idx → EReal) (W : SW.Idx → EReal) (b : SB.Idx → EReal)
    (hX : AllReal X) (hW : AllReal W) (hb : AllReal b) :
    ∃ r : Fin 4 → Fin 2048 → Fin 1024 → ℝ, proj X W b = coeArr r := by
  choose x hx using hX
  choose w hw using hW
  choose c hc using hb
  refine ⟨fun n t f => (∑ e : Fin 1024, x (ix3 n t e) * w (ix2 e f)) + c (ix1 f), ?_⟩
  funext n t f
  simp only [proj, coeArr, hx, hw, hc, ← EReal.coe_mul, coe_finset_sum, ← EReal.coe_add]

/-- The logit of real Q and K is the real sum of products. -/
theorem logit_coe (Q K : Fin 4 → Fin 2048 → Fin 1024 → ℝ) (n : Fin 4) (q : Fin 2048) :
    logit (coeArr Q) (coeArr K) n q = fun k => ((∑ e : Fin 1024, Q n q e * K n k e : ℝ) : EReal) := by
  funext k
  simp only [logit, coeArr, ← EReal.coe_mul, coe_finset_sum]

/-- For real Q and K the split logit is the plain logit: every remainder `x - x` is zero, so the
    leading-by-remainder and remainder-by-leading sums are sums of zeros. -/
theorem logitSplit_coe (Q K : Fin 4 → Fin 2048 → Fin 1024 → ℝ) (n : Fin 4) (q : Fin 2048) :
    logitSplit (coeArr Q) (coeArr K) n q = logit (coeArr Q) (coeArr K) n q := by
  funext k
  simp only [logitSplit, logit, coeArr, ← EReal.coe_sub, sub_self, EReal.coe_zero, mul_zero, zero_mul,
    Finset.sum_const_zero, add_zero]

/-- The maximum of finitely many reals, folded from the bottom element: the bottom element over the empty set, and a
    real otherwise. -/
theorem fold_max_coe {ι : Type} (s : Finset ι) (f : ι → ℝ) :
    (s = ∅ ∧ s.fold max ⊥ (fun k => (f k : EReal)) = ⊥) ∨ ∃ r : ℝ, s.fold max ⊥ (fun k => (f k : EReal)) = (r : EReal) := by
  classical
  induction s using Finset.induction_on with
  | empty => exact Or.inl ⟨rfl, Finset.fold_empty⟩
  | insert a s ha ih =>
    right
    rw [Finset.fold_insert ha]
    rcases ih with ⟨_, h⟩ | ⟨r, h⟩
    · exact ⟨f a, by rw [h, max_eq_left bot_le]⟩
    · exact ⟨max (f a) r, by rw [h, EReal.coe_strictMono.monotone.map_max]⟩

/-- The maximum of a row of reals is a real. -/
theorem rowMax_coe (s : Fin 2048 → ℝ) : ∃ M : ℝ, rowMax (fun k => (s k : EReal)) = (M : EReal) := by
  rcases fold_max_coe (Finset.univ : Finset (Fin 2048)) s with ⟨h, _⟩ | h
  · exact absurd h (Finset.univ_nonempty (α := Fin 2048)).ne_empty
  · exact h

/-- The weights of a row of reals are positive reals. -/
theorem weight_coe (s : Fin 2048 → ℝ) :
    ∃ p : Fin 2048 → ℝ, (∀ k, 0 < p k) ∧ weight (fun k => (s k : EReal)) = fun k => (p k : EReal) := by
  obtain ⟨M, hM⟩ := rowMax_coe s
  refine ⟨fun k => Real.exp (s k - M), fun k => Real.exp_pos _, ?_⟩
  funext k
  rw [weight, hM, ← EReal.coe_sub, Ideal.exp_coe]

/-- For positive real weights p and real values v, dividing the weighted sum once by the total weight is the sum of
    the values with each weight divided first: with L the (positive, hence nonzero) total, both are
    `∑ k, p k · v k · (1 / L)` in ℝ. -/
theorem div_sum_eq_sum_div (p v : Fin 2048 → ℝ) (hp : ∀ k, 0 < p k) :
    Ideal.div (∑ k : Fin 2048, (p k : EReal) * (v k : EReal)) (∑ k : Fin 2048, (p k : EReal))
      = ∑ k : Fin 2048, Ideal.div (p k : EReal) (∑ k' : Fin 2048, (p k' : EReal)) * (v k : EReal) := by
  have hL : (∑ k : Fin 2048, p k) ≠ 0 :=
    ne_of_gt (Finset.sum_pos (fun k _ => hp k) Finset.univ_nonempty)
  simp only [coe_finset_sum, Ideal.div_coe hL, ← EReal.coe_mul]
  rw [Finset.sum_mul]
  refine congrArg _ (Finset.sum_congr rfl fun k _ => ?_)
  ring

/-- The two arrangements of the attention output agree when every entry of every argument is a real number. -/
theorem kerOut_eq_refOut (X : SX.Idx → EReal) (Wq : SW.Idx → EReal) (bq : SB.Idx → EReal) (Wk : SW.Idx → EReal)
    (bk : SB.Idx → EReal) (Wv : SW.Idx → EReal) (bv : SB.Idx → EReal) (hX : AllReal X) (hWq : AllReal Wq)
    (hbq : AllReal bq) (hWk : AllReal Wk) (hbk : AllReal bk) (hWv : AllReal Wv) (hbv : AllReal bv) :
    kerOut X Wq bq Wk bk Wv bv = refOut X Wq bq Wk bk Wv bv := by
  obtain ⟨Q, hQ⟩ := proj_real X Wq bq hX hWq hbq
  obtain ⟨K, hK⟩ := proj_real X Wk bk hX hWk hbk
  obtain ⟨V, hV⟩ := proj_real X Wv bv hX hWv hbv
  funext i
  rw [kerOut, refOut, hQ, hK, hV, logitSplit_coe Q K (i 0) (i 1), logit_coe Q K (i 0) (i 1)]
  obtain ⟨p, hp, hw⟩ := weight_coe (fun k => ∑ e : Fin 1024, Q (i 0) (i 1) e * K (i 0) k e)
  rw [hw]
  exact div_sum_eq_sum_div p (fun k => V (i 0) k (i 2)) hp

end Cert.Attn

end
-- ==== Proof.Finite.lean ====
/-
  The precondition "every float input is finite", read back as a statement about the seven argument arrays on the
  extended reals: every entry of every array is a real number.

  The precondition is a function of the seven arrays that answers one truth value. For each array it takes the
  absolute value of every entry, compares it (strictly less than) with the single-precision pattern of plus infinity
  broadcast to the array's shape, and takes the conjunction of all those comparisons, starting from true; the seven
  conjunctions are then joined by six more conjunctions. The hypothesis is that the answer is true.

  Reading it back goes in three steps. (1) A conjunction of one-bit words that is 1 has both operands 1, so each of the
  seven whole-array conjunctions is 1; and a whole-array conjunction that is 1 met the word 1 at every index, so every
  single comparison came out 1. (2) On the extended reals the pattern of plus infinity is the top element, the
  absolute value of `a` is `max a (-a)`, and the comparison answers 1 exactly when its first operand is strictly
  below its second; so every entry `a` satisfies `max a (-a) < ⊤`. (3) An extended real is the bottom element, a real
  number, or the top element; at the bottom element `-a` is the top element and at the top element `a` is, so
  `max a (-a) < ⊤` fails in both, and the entry is a real number.
-/
import proofs.«120993_j61907658605336_2_alg».proof.Proof.Spec
import proofs.«120993_j61907658605336_2_alg».proof.Pre_finite_inputs
import Idealize.ShloMosaic.Lib.ReduceAll

noncomputable section

namespace Cert.Attn.Finite

open Idealize.ShloMosaic Idealize.ShloMosaic.ValueIdx

/-! ## One entry -/

/-- The single-precision pattern of plus infinity (sign 0, exponent all ones, fraction 0) denotes the top element of
    the extended reals. -/
theorem ofBits_inf : Ideal.ofBits .f32 0x7F800000#32 = (⊤ : EReal) := by
  simp [Ideal.ofBits, Ideal.ieee]

/-- An extended real whose absolute value `max a (-a)` is strictly below the top element is a real number: at the
    bottom element `-a = ⊤`, at the top element `a = ⊤`, and in both the maximum is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- A truth value written as a one-bit word is the word 1 exactly when it is true. -/
theorem ofBool_eq_one {b : Bool} : BitVec.ofBool b = 1#1 ↔ b = true := by cases b <;> decide

/-- The ordered less-than comparison of two extended reals answers 1 exactly when the first is strictly below the
    second. -/
theorem cmp_olt_eq_one {x y : EReal} : Ideal.cmp .olt x y = 1#1 ↔ x < y := by
  unfold Ideal.cmp
  rw [ofBool_eq_one]
  exact decide_eq_true_iff

/-- One comparison of the precondition: if the absolute value of `a` compares strictly below the pattern of plus
    infinity, then `a` is a real number. -/
theorem real_of_cmp (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  apply real_of_abs_lt_top
  change Ideal.cmp .olt (max a (-a)) (Ideal.ofBits .f32 0x7F800000#32) = 1#1 at h
  rw [ofBits_inf] at h
  exact cmp_olt_eq_one.1 h

/-! ## One array -/

/-- The shape of a single truth value has exactly one index. -/
instance : Subsingleton Cert.Pre_finite_inputs.S_.Idx := ⟨fun a b => funext fun d => d.elim0⟩

/-- One array of the precondition, of any shape: if the conjunction, over all indices and from the word 1, of the
    comparisons "the absolute value of the entry is strictly below plus infinity" is 1, then every entry of the array
    is a real number. Each comparison is 1 because the whole conjunction is, and a comparison that is 1 makes its entry
    real. -/
theorem allReal_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf (F := Ideal) (φ := .f32) .olt (Host.absf (F := Ideal) (φ := .f32) x)
          (broadcastInDim s ![] hb (constant (F := Ideal) Cert.Pre_finite_inputs.S_ .f32 0x7F800000#32)))
        (constantI Cert.Pre_finite_inputs.S_ 1 1#1) hr hu ix0 = 1#1) :
    Cert.Attn.AllReal x := by
  intro i
  exact real_of_cmp (x i) (Host.reduce_andi_all _ _ hr hu ix0 e i)

/-! ## The seven arrays -/

/-- The conjunction of two arrays of one-bit words is 1 at an index exactly when both are 1 there. -/
theorem andi_apply_eq_one {s : Shape} (x y : IVec s 1) (i : s.Idx) :
    andi x y i = 1#1 ↔ x i = 1#1 ∧ y i = 1#1 := IntOp.andi_eq_one

/-- If the precondition "every float input is finite" answers true on seven arrays of extended reals, then every entry
    of each of the seven arrays is a real number. The answer is the conjunction of seven whole-array conjunctions;
    all seven are therefore 1, and each makes its array real entry by entry. -/
theorem allReal_of_pre [Cert.Pre_finite_inputs.Facts]
    (x0 : Cert.Pre_finite_inputs.S4x2048x1024.Idx → EReal) (x1 : Cert.Pre_finite_inputs.S1024x1024.Idx → EReal)
    (x2 : Cert.Pre_finite_inputs.S1024.Idx → EReal) (x3 : Cert.Pre_finite_inputs.S1024x1024.Idx → EReal)
    (x4 : Cert.Pre_finite_inputs.S1024.Idx → EReal) (x5 : Cert.Pre_finite_inputs.S1024x1024.Idx → EReal)
    (x6 : Cert.Pre_finite_inputs.S1024.Idx → EReal)
    (h : Cert.Pre_finite_inputs.fn (F := Ideal) x0 x1 x2 x3 x4 x5 x6 = fun _ => 1#1) :
    Cert.Attn.AllReal x0 ∧ Cert.Attn.AllReal x1 ∧ Cert.Attn.AllReal x2 ∧ Cert.Attn.AllReal x3 ∧ Cert.Attn.AllReal x4
      ∧ Cert.Attn.AllReal x5 ∧ Cert.Attn.AllReal x6 := by
  have h' := congrFun h ix0
  dsimp only [Cert.Pre_finite_inputs.fn, Cert.Pre_finite_inputs.fn_part1] at h'
  simp only [andi_apply_eq_one] at h'
  obtain ⟨⟨⟨⟨⟨⟨h0, h1⟩, h2⟩, h3⟩, h4⟩, h5⟩, h6⟩ := h'
  exact ⟨allReal_of_all x0 _ _ _ h0, allReal_of_all x1 _ _ _ h1, allReal_of_all x2 _ _ _ h2,
    allReal_of_all x3 _ _ _ h3, allReal_of_all x4 _ _ _ h4, allReal_of_all x5 _ _ _ h5, allReal_of_all x6 _ _ _ h6⟩

end Cert.Attn.Finite

end
-- ==== Proof.lean ====
/-
  The kernel computes unscaled softmax attention, and so does the reference.

  One fused kernel takes an input of 4 sequences of 2048 positions and 1024 features, with query, key and value
  weights and biases. For each sequence it projects the whole input block to keys and values once and keeps them,
  and for each tile of 512 query positions it projects the tile to queries, forms the logits of every query against
  every key, shifts each row by its maximum, exponentiates, and divides the product of those weights with the values
  by the weights' row sum. It forms each logit from the queries and keys split into a leading part and a remainder,
  leaving out the remainder-by-remainder term; on the extended reals a change of float format is the identity, so a
  remainder is a value less itself.

  The reference projects the whole input three times, forms all logits at once, takes the softmax of each row (each
  weight divided by its row's sum) and multiplies by the values.

  Under the precondition every argument entry is a real number. Then every remainder is zero, so the split logits are
  the plain logits, every weight is a positive real and every row sum a nonzero real, and dividing the weighted sum
  once is the same as dividing each weight first: the two outputs are one function of the seven arguments.

  The frame claims are the generated frames; the reference's is its generated run with the result dropped. The two
  sanctioned rewrites are a round trip through the narrower float format read as the identity, each the rule's own
  statement.
-/
import proofs.«120993_j61907658605336_2_alg».proof.Defs
import proofs.«120993_j61907658605336_2_alg».proof.Proof.Gen.Kernel
import proofs.«120993_j61907658605336_2_alg».proof.Proof.Gen.Kernel.Frame
import proofs.«120993_j61907658605336_2_alg».proof.Proof.Gen.KernelIdeal
import proofs.«120993_j61907658605336_2_alg».proof.Proof.Gen.KernelIdeal.Frame
import proofs.«120993_j61907658605336_2_alg».proof.Proof.Gen.ReferenceIdeal
import proofs.«120993_j61907658605336_2_alg».proof.Proof.Gen.Pre_finite_inputs
import proofs.«120993_j61907658605336_2_alg».proof.Proof.Gen.KernelIdeal.Value
import proofs.«120993_j61907658605336_2_alg».proof.Proof.Gen.ReferenceIdeal.Run
import proofs.«120993_j61907658605336_2_alg».proof.Proof.Gen.ReferenceIdeal.Read
import proofs.«120993_j61907658605336_2_alg».proof.Proof.Blocks
import proofs.«120993_j61907658605336_2_alg».proof.Proof.RefSide
import proofs.«120993_j61907658605336_2_alg».proof.Proof.Algebra
import proofs.«120993_j61907658605336_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: a value narrowed to the shorter float format and widened back is, on the
    extended reals, the value; once over the keys' array and once over a query tile. -/
theorem preserves : Cert.preserves_Kernel_KernelIdeal :=
  ⟨IdealRules.truncf_extf.statement _ .f32 .bf16, IdealRules.truncf_extf.statement _ .f32 .bf16⟩

/-- From memories that agree on the seven arguments, all of whose entries are real numbers, both programs end with
    the result array at the attention output of those arguments: the kernel in its summed-then-divided arrangement
    over the split logits, the reference with each weight normalised first, and the two are one function. -/
theorem algebraic : Cert.algebraic_KernelIdeal_ReferenceIdeal := by
  intro m ρ m' ρ' hpre hagree
  refine ⟨fun c => Cert.Attn.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Blocks.run m ρ)
    obtain ⟨h0, h1, h2, h3, h4, h5, h6⟩ := Cert.Attn.Finite.allReal_of_pre _ _ _ _ _ _ _ (hpre c)
    exact Cert.Attn.kerOut_eq_refOut _ _ _ _ _ _ _ h0 h1 h2 h3 h4 h5 h6
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v24_eq, Cert.Attn.Ref.val_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
